-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S524288x1 : Shape := ⟨2, ![524288, 1]⟩
abbrev S16384 : Shape := ⟨1, ![16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S524288x1 : S_.BroadcastsInDim S524288x1 (![] : Fin 0 → Fin S524288x1.rank)
  reducesTo_S524288x1_S_d0_1 : S524288x1.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_v13 : IVec S_ 1) (main_v16 : IVec S16384 1) : IVec S_ 1 :=
  let main_c_5 : IVec S_ 1 := constantI S_ 1 1#1
  let main_v17 : IVec S_ 1 := (fun x v => Host.reduce IntOp.andi x v reducesTo_S16384_S_d0 h_S_) main_v16 main_c_5
  let main_v18 : IVec S_ 1 := andi main_v13 main_v17
  main_v18

def fn {F : FTy → Type} [FloatOps F] (main_arg0 : FVec F S4x2048x4096 .f32) (main_arg1 : IVec S16384x4096 32) (main_arg2 : FVec F S524288x1 .f32) (main_arg3 : FVec F S524288x1 .f32) (main_arg4 : FVec F S16384 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S524288x1 .f32 := Host.absf main_arg2
  let main_cst_0 : FVec F S_ .f32 := constant S_ .f32 0x7F800000#32
  let main_v5 : FVec F S524288x1 .f32 := broadcastInDim S524288x1 ![] bcast_S_S524288x1 main_cst_0
  let main_v6 : IVec S524288x1 1 := cmpf .olt main_v4 main_v5
  let main_c_1 : IVec S_ 1 := constantI S_ 1 1#1
  let main_v7 : IVec S_ 1 := (fun x v => Host.reduce IntOp.andi x v reducesTo_S524288x1_S_d0_1 h_S_) main_v6 main_c_1
  let main_v8 : IVec S_ 1 := andi main_v3 main_v7
  let main_v9 : FVec F S524288x1 .f32 := Host.absf main_arg3
  let main_cst_2 : FVec F S_ .f32 := constant S_ .f32 0x7F800000#32
  let main_v10 : FVec F S524288x1 .f32 := broadcastInDim S524288x1 ![] bcast_S_S524288x1 main_cst_2
  let main_v11 : IVec S524288x1 1 := cmpf .olt main_v9 main_v10
  let main_c_3 : IVec S_ 1 := constantI S_ 1 1#1
  let main_v12 : IVec S_ 1 := (fun x v => Host.reduce IntOp.andi x v reducesTo_S524288x1_S_d0_1 h_S_) main_v11 main_c_3
  let main_v13 : IVec S_ 1 := andi main_v8 main_v12
  let main_v14 : FVec F S16384 .f32 := Host.absf main_arg4
  let main_cst_4 : FVec F S_ .f32 := constant S_ .f32 0x7F800000#32
  let main_v15 : FVec F S16384 .f32 := broadcastInDim S16384 ![] bcast_S_S16384 main_cst_4
  let main_v16 : IVec S16384 1 := cmpf .olt main_v14 main_v15
  fn_part1 (F := F) main_v13 main_v16
-- ==== Kernel.lean ====
abbrev S4x2048x4096 : Shape := ⟨3, ![4, 2048, 4096]⟩
abbrev S16384x4096 : Shape := ⟨2, ![16384, 4096]⟩
abbrev S524288x1 : Shape := ⟨2, ![524288, 1]⟩
abbrev S16384 : Shape := ⟨1, ![16384]⟩
abbrev S8192x4096 : Shape := ⟨2, ![8192, 4096]⟩
abbrev S16384x32 : Shape := ⟨2, ![16384, 32]⟩
abbrev S1x16384 : Shape := ⟨2, ![1, 16384]⟩
abbrev S8192x16384 : Shape := ⟨2, ![8192, 16384]⟩
abbrev S512x4096 : Shape := ⟨2, ![512, 4096]⟩
abbrev S512x32 : Shape := ⟨2, ![512, 32]⟩
abbrev S1x512 : Shape := ⟨2, ![1, 512]⟩
abbrev S512x512 : Shape := ⟨2, ![512, 512]⟩
abbrev S512x4 : Shape := ⟨2, ![512, 4]⟩
abbrev S512x4x1 : Shape := ⟨3, ![512, 4, 1]⟩
abbrev S512x4x128 : Shape := ⟨3, ![512, 4, 128]⟩
abbrev S4x2048x16384 : Shape := ⟨3, ![4, 2048, 16384]⟩

abbrev nBuf : Space → Nat
  | .hbm => 12
  | .vmem => 12
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .i32⟩
  | .hbm, ⟨2, _⟩ => ⟨S524288x1, .f32⟩
  | .hbm, ⟨3, _⟩ => ⟨S524288x1, .f32⟩
  | .hbm, ⟨4, _⟩ => ⟨S16384, .f32⟩
  | .hbm, ⟨5, _⟩ => ⟨S8192x4096, .f32⟩
  | .hbm, ⟨6, _⟩ => ⟨S8192x4096, .bf16⟩
  | .hbm, ⟨7, _⟩ => ⟨S16384x32, .f32⟩
  | .hbm, ⟨8, _⟩ => ⟨S16384x32, .f32⟩
  | .hbm, ⟨9, _⟩ => ⟨S1x16384, .f32⟩
  | .hbm, ⟨10, _⟩ => ⟨S8192x16384, .f32⟩
  | .hbm, ⟨11, _⟩ => ⟨S4x2048x16384, .f32⟩
  | .local _ .vmem, ⟨0, _⟩ => ⟨S512x4096, .bf16⟩
  | .local _ .vmem, ⟨1, _⟩ => ⟨S512x4096, .bf16⟩
  | .local _ .vmem, ⟨2, _⟩ => ⟨S512x4096, .i32⟩
  | .local _ .vmem, ⟨3, _⟩ => ⟨S512x4096, .i32⟩
  | .local _ .vmem, ⟨4, _⟩ => ⟨S512x32, .f32⟩
  | .local _ .vmem, ⟨5, _⟩ => ⟨S512x32, .f32⟩
  | .local _ .vmem, ⟨6, _⟩ => ⟨S512x32, .f32⟩
  | .local _ .vmem, ⟨7, _⟩ => ⟨S512x32, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4x2048x4096_S8192x4096 : S4x2048x4096.ShapeCasts S8192x4096
  bitsLt_bf16_f32 : FTy.bits .bf16 < FTy.bits .f32
  shapeCasts_S524288x1_S16384x32 : S524288x1.ShapeCasts S16384x32
  shapeCasts_S16384_S1x16384 : S16384.ShapeCasts S1x16384
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S512x4096_S512x512_0_0 : ∀ a, (![0, 0] : Fin 2 → Nat) a + S512x512.size a ≤ S512x4096.size a
  h_S512x512 : 0 < S512x512.numel
  slices_S512x32_o0_0_S512x4 : S512x32.Slices ![0, 0] S512x4
  shapeCasts_S512x4_S512x4x1 : S512x4.ShapeCasts S512x4x1
  shapeCasts_S512x4x1_S512x4x1 : S512x4x1.ShapeCasts S512x4x1
  broadcasts_S512x4x1_S512x4x128 : S512x4x1.Broadcasts S512x4x128
  shapeCasts_S512x4x128_S512x512 : S512x4x128.ShapeCasts S512x512
  shapeCasts_S512x512_S512x512 : S512x512.ShapeCasts S512x512
  inb_S512x4096_S512x512_0_512 : ∀ a, (![0, 512] : Fin 2 → Nat) a + S512x512.size a ≤ S512x4096.size a
  slices_S512x32_o0_4_S512x4 : S512x32.Slices ![0, 4] S512x4
  inb_S512x4096_S512x512_0_1024 : ∀ a, (![0, 1024] : Fin 2 → Nat) a + S512x512.size a ≤ S512x4096.size a
  slices_S512x32_o0_8_S512x4 : S512x32.Slices ![0, 8] S512x4
  inb_S512x4096_S512x512_0_1536 : ∀ a, (![0, 1536] : Fin 2 → Nat) a + S512x512.size a ≤ S512x4096.size a
  slices_S512x32_o0_12_S512x4 : S512x32.Slices ![0, 12] S512x4
  inb_S512x4096_S512x512_0_2048 : ∀ a, (![0, 2048] : Fin 2 → Nat) a + S512x512.size a ≤ S512x4096.size a
  slices_S512x32_o0_16_S512x4 : S512x32.Slices ![0, 16] S512x4
  inb_S512x4096_S512x512_0_2560 : ∀ a, (![0, 2560] : Fin 2 → Nat) a + S512x512.size a ≤ S512x4096.size a
  slices_S512x32_o0_20_S512x4 : S512x32.Slices ![0, 20] S512x4
  inb_S512x4096_S512x512_0_3072 : ∀ a, (![0, 3072] : Fin 2 → Nat) a + S512x512.size a ≤ S512x4096.size a
  slices_S512x32_o0_24_S512x4 : S512x32.Slices ![0, 24] S512x4
  inb_S512x4096_S512x512_0_3584 : ∀ a, (![0, 3584] : Fin 2 → Nat) a + S512x512.size a ≤ S512x4096.size a
  slices_S512x32_o0_28_S512x4 : S512x32.Slices ![0, 28] S512x4
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  shapeCasts_S8192x16384_S4x2048x16384 : S8192x16384.ShapeCasts S4x2048x16384
  dot_S512x512_S512x512_S512x512_1_1_0_0_n_n_wf : DotDims.WF S512x512 S512x512 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .i32 = 32 ∨ (Rect.block (s := S16384x4096) S512x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S16384x32.size a
  hwx0_2 : ∀ i : grid0.Coords, EltTy.bits .f32 = 32 ∨ (Rect.block (s := S16384x32) S512x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x32.size a ≤ S16384x32.size a
  hwx0_3 : ∀ i : grid0.Coords, EltTy.bits .f32 = 32 ∨ (Rect.block (s := S16384x32) S512x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x16384.size a
  hwx0_4 : ∀ i : grid0.Coords, EltTy.bits .f32 = 32 ∨ (Rect.block (s := S1x16384) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S8192x16384.size a
  hwx0_5 : ∀ i : grid0.Coords, EltTy.bits .f32 = 32 ∨ (Rect.block (s := S8192x16384) S512x512.size (cc0_transform_5 i) (hinb0_5 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf

abbrev win0_0 : Pipeline.Window sig grid0 :=
  Pipeline.Window.ofSpec (Memref.whole main_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S524288x1 : Shape := ⟨2, ![524288, 1]⟩
abbrev S16384 : Shape := ⟨1, ![16384]⟩
abbrev S524288x128 : Shape := ⟨2, ![524288, 128]⟩
abbrev S4x2048x16384 : Shape := ⟨3, ![4, 2048, 16384]⟩
abbrev S1x1x16384 : Shape := ⟨3, ![1, 1, 16384]⟩

abbrev nBuf : Space → Nat
  | .hbm => 16
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .i32⟩
  | .hbm, ⟨2, _⟩ => ⟨S524288x1, .f32⟩
  | .hbm, ⟨3, _⟩ => ⟨S524288x1, .f32⟩
  | .hbm, ⟨4, _⟩ => ⟨S16384, .f32⟩
  | .hbm, ⟨5, _⟩ => ⟨S16384x4096, .f32⟩
  | .hbm, ⟨6, _⟩ => ⟨S524288x128, .f32⟩
  | .hbm, ⟨7, _⟩ => ⟨S524288x128, .f32⟩
  | .hbm, ⟨8, _⟩ => ⟨S524288x128, .f32⟩
  | .hbm, ⟨9, _⟩ => ⟨S524288x128, .f32⟩
  | .hbm, ⟨10, _⟩ => ⟨S524288x128, .f32⟩
  | .hbm, ⟨11, _⟩ => ⟨S16384x4096, .f32⟩
  | .hbm, ⟨12, _⟩ => ⟨S4x2048x16384, .f32⟩
  | .hbm, ⟨13, _⟩ => ⟨S1x1x16384, .f32⟩
  | .hbm, ⟨14, _⟩ => ⟨S4x2048x16384, .f32⟩
  | .hbm, ⟨15, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  shapeCasts_S16384x4096_S524288x128 : S16384x4096.ShapeCasts S524288x128
  bcast_S524288x1_S524288x128_0_1 : S524288x1.BroadcastsInDim S524288x128 (![0, 1] : Fin 2 → Fin S524288x128.rank)
  shapeCasts_S524288x128_S16384x4096 : S524288x128.ShapeCasts S16384x4096
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  dot_S4x2048x4096_S16384x4096_S4x2048x16384_2_1_01_0_n_n_wf : DotDims.WF S4x2048x4096 S16384x4096 S4x2048x16384 [2] [1] [0, 1] [0] [] []

variable [Facts₀]

def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.LibGroupSpread.lean ====
/-
  A per-group parameter spread over the columns of its group, read at an entry.

  A weight matrix quantized in groups of 128 consecutive columns carries one parameter per row and group. A block of
  512 rows with 32 groups per row holds these as `[512, 32]`. To meet a chunk of 512 consecutive columns (four groups,
  starting at group `o`) the four columns `o … o+3` are cut out (`[512, 4]`), given a trailing unit axis
  (`[512, 4, 1]`), repeated 128 times along it (`[512, 4, 128]`) and flattened (`[512, 512]`). Read at row `q` and
  column `j` of the chunk, the result is the parameter of row `q` and group `o + j / 128`: flattening sends `(q, j)` to
  `(q, j / 128, j % 128)`, the repetition forgets the last coordinate, the unit axis costs nothing, and the cut shifts
  the group by `o`.
-/
import Idealize.ShloMosaic.Lib.Pipeline.Value
import Idealize.ShloMosaic.Lib.ValueIdx
import Idealize.ShloMosaic.Lib.ValueLayout

namespace Cert.LibGroupSpread

open Idealize.ShloMosaic Idealize.ShloMosaic.ValueIdx

variable {α : Type}

/-- The spread of the four group columns `o … o+3` of `v` over a chunk of 512 columns. -/
def spread (o : ℕ) (v : (⟨2, ![512, 32]⟩ : Shape).Idx → α)
    (h0 : (⟨2, ![512, 32]⟩ : Shape).Slices ![0, o] ⟨2, ![512, 4]⟩)
    (h1 : (⟨2, ![512, 4]⟩ : Shape).ShapeCasts ⟨3, ![512, 4, 1]⟩)
    (h2 : (⟨3, ![512, 4, 1]⟩ : Shape).ShapeCasts ⟨3, ![512, 4, 1]⟩)
    (h3 : (⟨3, ![512, 4, 1]⟩ : Shape).Broadcasts ⟨3, ![512, 4, 128]⟩)
    (h4 : (⟨3, ![512, 4, 128]⟩ : Shape).ShapeCasts ⟨2, ![512, 512]⟩) : (⟨2, ![512, 512]⟩ : Shape).Idx → α :=
  shapeCast ⟨2, ![512, 512]⟩ (broadcastTo ⟨3, ![512, 4, 128]⟩ (shapeCast ⟨3, ![512, 4, 1]⟩
    (shapeCast ⟨3, ![512, 4, 1]⟩ (extractStridedSlice ⟨2, ![512, 4]⟩ ![0, o] v h0) h1) h2) h3) h4

/-- At row `q` and column `j` of the chunk the spread reads the parameter of row `q` and group `o + j / 128`. -/
theorem spread_apply (o : ℕ) (v : (⟨2, ![512, 32]⟩ : Shape).Idx → α)
    (h0 : (⟨2, ![512, 32]⟩ : Shape).Slices ![0, o] ⟨2, ![512, 4]⟩)
    (h1 : (⟨2, ![512, 4]⟩ : Shape).ShapeCasts ⟨3, ![512, 4, 1]⟩)
    (h2 : (⟨3, ![512, 4, 1]⟩ : Shape).ShapeCasts ⟨3, ![512, 4, 1]⟩)
    (h3 : (⟨3, ![512, 4, 1]⟩ : Shape).Broadcasts ⟨3, ![512, 4, 128]⟩)
    (h4 : (⟨3, ![512, 4, 128]⟩ : Shape).ShapeCasts ⟨2, ![512, 512]⟩)
    (q j : Fin 512) (g : Fin 32) (hg : g.val = o + j.val / 128) :
    spread o v h0 h1 h2 h3 h4 (ix2 q j) = v (ix2 q g) := by
  have hj : j.val / 128 < 4 := by have := j.isLt; omega
  have hm : j.val % 128 < 128 := Nat.mod_lt _ (by decide)
  unfold spread
  refine (shapeCast_apply _ h4 (ix2 q j) (ix3 q ⟨j.val / 128, hj⟩ ⟨j.val % 128, hm⟩) ?_).trans ?_
  · rw [Shape.rowMajor_val_three, Shape.rowMajor_val_two]
    show (q.val * 4 + j.val / 128) * 128 + j.val % 128 = q.val * 512 + j.val
    omega
  refine (broadcastTo_apply _ h3 _ (ix3 q ⟨j.val / 128, hj⟩ (0 : Fin 1)) (fun a => ?_)).trans ?_
  · match a with
    | ⟨0, _⟩ => show q.val = if (512 : ℕ) = 1 then 0 else q.val; rw [if_neg (by decide)]
    | ⟨1, _⟩ => show j.val / 128 = if (4 : ℕ) = 1 then 0 else j.val / 128; rw [if_neg (by decide)]
    | ⟨2, _⟩ => show 0 = if (1 : ℕ) = 1 then 0 else j.val % 128; rw [if_pos rfl]
  rw [shapeCast_self]
  refine (shapeCast_apply _ h1 _ (ix2 q ⟨j.val / 128, hj⟩) ?_).trans ?_
  · rw [Shape.rowMajor_val_three, Shape.rowMajor_val_two]
    show q.val * 4 + j.val / 128 = (q.val * 4 + j.val / 128) * 1 + 0
    omega
  exact slice2_axis1_apply o v h0 q ⟨j.val / 128, hj⟩ g hg

end Cert.LibGroupSpread
-- ==== Proof.LibChunkSum.lean ====
/-
  A sum over 4096 consecutive positions taken as eight chunks of 512.

  In any commutative additive monoid the sum of `f` over `0 … 4095` is the sum over the chunk number `c < 8` of the
  sums of `f (512 c + j)` over `j < 512`: position `k` is `512 (k / 512) + k % 512`, a bijection between positions and
  pairs (chunk, place in the chunk), and a sum over pairs is an iterated sum. Spelt out over the eight chunks it is the
  left-nested sum a program accumulating chunk after chunk computes. Only commutativity and associativity of the sum
  are used, so it holds on the extended reals whatever the terms are.
-/
import Mathlib.Algebra.BigOperators.Fin
import Mathlib.Logic.Equiv.Fin.Basic

namespace Cert.LibChunkSum

open scoped BigOperators

variable {M : Type*} [AddCommMonoid M]

/-- Position `512 c + j` of chunk `c`, place `j`. -/
def pos (c : Fin 8) (j : Fin 512) : Fin 4096 := ⟨512 * c.val + j.val, by have := c.isLt; have := j.isLt; omega⟩

theorem pos_val (c : Fin 8) (j : Fin 512) : (pos c j).val = 512 * c.val + j.val := rfl

/-- The sum over all positions is the sum over the chunks of the chunks' sums. -/
theorem sum_chunks (f : Fin 4096 → M) : ∑ k : Fin 4096, f k = ∑ c : Fin 8, ∑ j : Fin 512, f (pos c j) := by
  have e := Equiv.sum_comp (finProdFinEquiv (m := 8) (n := 512)) (f : Fin (8 * 512) → M)
  rw [Fintype.sum_prod_type] at e
  refine e.symm.trans (Finset.sum_congr rfl fun c _ => Finset.sum_congr rfl fun j _ => congrArg f (Fin.ext ?_))
  show j.val + 512 * c.val = 512 * c.val + j.val
  omega

/-- The same with the eight chunks written out, nested to the left as an accumulation adds them. -/
theorem sum_eight (f : Fin 4096 → M) :
    ∑ k : Fin 4096, f k
      = (∑ j : Fin 512, f (pos 0 j)) + (∑ j : Fin 512, f (pos 1 j)) + (∑ j : Fin 512, f (pos 2 j))
        + (∑ j : Fin 512, f (pos 3 j)) + (∑ j : Fin 512, f (pos 4 j)) + (∑ j : Fin 512, f (pos 5 j))
        + (∑ j : Fin 512, f (pos 6 j)) + (∑ j : Fin 512, f (pos 7 j)) := by
  rw [sum_chunks, Fin.sum_univ_eight]

end Cert.LibChunkSum
-- ==== Proof.KernelBlock.lean ====
/-
  One block of the quantized linear layer, entry by entry.

  At a grid point the body holds a block of 512 rows of the activations `x` (all 4096 columns), a block of 512 rows of
  the integer weight codes `wq` (all 4096 columns), the same 512 rows of the per-group scales `sc` and zero points
  `zp` (32 groups of 128 columns each), and 512 entries of the bias as one row. It walks the 4096 columns in eight
  chunks of 512: each chunk's codes are converted to numbers, the chunk's four zero points and scales are spread over
  their 128 columns each, `(wq - zp) · sc` is the chunk of the dequantized weight, and the matrix unit contracts the
  chunk of `x` with it along the columns into a zero accumulator. The eight products are added in order onto a zero
  block, and the bias row is added to every row.

  On the extended reals, entry `(p, q)` of what the body stores is therefore
      `∑ k < 4096, x (p, k) · ((wq (q, k) - zp (q, k / 128)) · sc (q, k / 128)) + bias (0, q)`:
  a product into the zero accumulator is the plain sum over the contraction index; chunk `c` at place `j` reads column
  `512 c + j`, whose group is `4 c + j / 128`; the eight chunk sums added in order are the sum over all columns
  (associativity and commutativity of addition only); and zero plus a sum is the sum. No entry needs to be finite.
-/
import proofs.«150903_j57002805952633_1_alg».proof.Proof.Gen.KernelIdeal.Frame
import proofs.«150903_j57002805952633_1_alg».proof.Proof.LibGroupSpread
import proofs.«150903_j57002805952633_1_alg».proof.Proof.LibChunkSum
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Idealize.ShloMosaic Idealize.ShloMosaic.ValueIdx
open Cert.KernelIdeal Cert.KernelIdeal.Gen
open Cert.LibGroupSpread Cert.LibChunkSum

/-! ## The dequantized weight -/

/-- The quantization group of column `k`: 128 consecutive columns share a group. -/
def grp (k : Fin 4096) : Fin 32 := ⟨k.val / 128, by have := k.isLt; omega⟩

/-- Row `q`, column `k` of the dequantized weight of a block of `R` rows: `(wq - zp) · sc` with the group's parameters. -/
def deq {R : ℕ} (wq : (⟨2, ![R, 4096]⟩ : Shape).Idx → BitVec 32) (sc zp : (⟨2, ![R, 32]⟩ : Shape).Idx → EReal)
    (q : Fin R) (k : Fin 4096) : EReal :=
  (FloatOps.sitofp (F := Ideal) .f32 (wq (ix2 q k)) - zp (ix2 q (grp k))) * sc (ix2 q (grp k))

/-! ## The matrix unit's product, contracted along the columns of both operands -/

abbrev D512 : DotDims S512x512 S512x512 S512x512 := dot_S512x512_S512x512_S512x512_1_1_0_0_n_n

theorem lhs_row (i : S512x512.Idx) (r : D512.contr.Idx) : (D512.lhsIdx i r 0).val = (i 0).val := by
  unfold DotDims.lhsIdx
  rw [dif_neg (show ¬(0 : Fin S512x512.rank) ∈ D512.lhsBatch by decide),
    dif_pos (show (0 : Fin S512x512.rank) ∈ D512.lhsNonContracting by decide)]
  rfl
theorem lhs_col (i : S512x512.Idx) (r : D512.contr.Idx) : (D512.lhsIdx i r 1).val = (r ⟨0, by decide⟩).val :=
  D512.lhsIdx_val_of_single rfl i r
theorem rhs_row (i : S512x512.Idx) (r : D512.contr.Idx) : (D512.rhsIdx i r 0).val = (i 1).val := by
  unfold DotDims.rhsIdx
  rw [dif_neg (show ¬(0 : Fin S512x512.rank) ∈ D512.rhsBatch by decide),
    dif_pos (show (0 : Fin S512x512.rank) ∈ D512.rhsNonContracting by decide)]
  rfl
theorem rhs_col (i : S512x512.Idx) (r : D512.contr.Idx) : (D512.rhsIdx i r 1).val = (r ⟨0, by decide⟩).val :=
  D512.rhsIdx_val_of_single rfl i r

/-- Into the zero accumulator, entry `(p, q)` of the product is `∑ k, L (p, k) · R (q, k)`: both operands are read along
    their columns. -/
theorem dot_apply {φ₁ φ₂ : FTy} (L : FVec Ideal S512x512 φ₁) (R : FVec Ideal S512x512 φ₂) (p q : Fin 512) :
    FloatOps.matmul D512 none L R (constant (F := Ideal) S512x512 .f32 0x00000000#32) (ix2 p q)
      = ∑ k : Fin 512, L (ix2 p k) * R (ix2 q k) := by
  rw [Ideal.matmul_constant_zero_apply, ← Equiv.sum_comp (contrEquiv1 D512 512 rfl rfl).symm]
  refine Finset.sum_congr rfl fun k _ => ?_
  have hk := contrEquiv1_symm_val D512 512 rfl rfl k
  have el : D512.lhsIdx (ix2 p q) ((contrEquiv1 D512 512 rfl rfl).symm k) = ix2 p k := funext fun a => Fin.ext (by
    match a with
    | ⟨0, _⟩ => exact lhs_row _ _
    | ⟨1, _⟩ => exact (lhs_col _ _).trans hk)
  have er : D512.rhsIdx (ix2 p q) ((contrEquiv1 D512 512 rfl rfl).symm k) = ix2 q k := funext fun a => Fin.ext (by
    match a with
    | ⟨0, _⟩ => exact rhs_row _ _
    | ⟨1, _⟩ => exact (rhs_col _ _).trans hk)
  rw [el, er]

/-! ## One chunk -/

/-- The product of one chunk: the chunk of `x` against the chunk of the dequantized weight, whose four groups start at
    group `o`. -/
def chunk (o : ℕ) (h0 : S512x32.Slices ![0, o] S512x4) (sc zp : FVec Ideal S512x32 .f32) (wq : Vec Ideal S512x512 .i32)
    (xb : Vec Ideal S512x512 .bf16) : FVec Ideal S512x512 .f32 :=
  matmul D512 none (shapeCast S512x512 xb shapeCasts_S512x512_S512x512 : FVec Ideal S512x512 .bf16)
    (truncf .bf16 (mulf (subf (sitofp .f32 wq)
        (spread o zp h0 shapeCasts_S512x4_S512x4x1 shapeCasts_S512x4x1_S512x4x1 broadcasts_S512x4x1_S512x4x128 shapeCasts_S512x4x128_S512x512))
      (spread o sc h0 shapeCasts_S512x4_S512x4x1 shapeCasts_S512x4x1_S512x4x1 broadcasts_S512x4x1_S512x4x128 shapeCasts_S512x4x128_S512x512))
      bitsLt_bf16_f32)
    (constant S512x512 .f32 0x00000000#32)

/-- Entry `(p, q)` of a chunk's product: the sum over the chunk's 512 places. -/
theorem chunk_apply (o : ℕ) (ho : o + 4 ≤ 32) (h0 : S512x32.Slices ![0, o] S512x4) (sc zp : FVec Ideal S512x32 .f32)
    (wq : Vec Ideal S512x512 .i32) (xb : Vec Ideal S512x512 .bf16) (p q : Fin 512) :
    chunk o h0 sc zp wq xb (ix2 p q)
      = ∑ j : Fin 512, xb (ix2 p j) * ((FloatOps.sitofp (F := Ideal) .f32 (wq (ix2 q j))
          - zp (ix2 q ⟨o + j.val / 128, by have := j.isLt; omega⟩)) * sc (ix2 q ⟨o + j.val / 128, by have := j.isLt; omega⟩)) := by
  unfold chunk
  refine (dot_apply _ _ p q).trans (Finset.sum_congr rfl fun j _ => ?_)
  rw [shapeCast_self]
  show xb (ix2 p j) * ((FloatOps.sitofp (F := Ideal) .f32 (wq (ix2 q j))
      - spread o zp h0 shapeCasts_S512x4_S512x4x1 shapeCasts_S512x4x1_S512x4x1 broadcasts_S512x4x1_S512x4x128 shapeCasts_S512x4x128_S512x512 (ix2 q j))
      * spread o sc h0 shapeCasts_S512x4_S512x4x1 shapeCasts_S512x4x1_S512x4x1 broadcasts_S512x4x1_S512x4x128 shapeCasts_S512x4x128_S512x512 (ix2 q j)) = _
  rw [spread_apply o zp h0 _ _ _ _ q j ⟨o + j.val / 128, by have := j.isLt; omega⟩ rfl,
    spread_apply o sc h0 _ _ _ _ q j ⟨o + j.val / 128, by have := j.isLt; omega⟩ rfl]

/-- A load of 512 columns starting at column `off` reads, at `(a, j)`, the buffer at `(a, off + j)`. -/
theorem ld_col {e : EltTy} (X : Vec Ideal S512x4096 e) (off : ℕ)
    (inb : ∀ a, (![0, off] : Fin 2 → Nat) a + S512x512.size a ≤ S512x4096.size a) (a j : Fin 512) (k : Fin 4096)
    (hk : k.val = off + j.val) :
    View.ld X (Rect.unit (s := S512x4096) ![0, off] S512x512.size inb) (ix2 a j) = X (ix2 a k) := by
  show X ((Rect.unit (s := S512x4096) ![0, off] S512x512.size inb).emb (ix2 a j)) = X (ix2 a k)
  refine congrArg X (funext fun b => Fin.ext ?_)
  match b with
  | ⟨0, _⟩ => show 0 + 1 * a.val = a.val; omega
  | ⟨1, _⟩ => show off + 1 * j.val = k.val; omega

/-- Chunk `c` of the body, entry `(p, q)`: the terms of columns `512 c … 512 c + 511`. -/
theorem chunk_at (c : Fin 8) (o off : ℕ) (ho : o = 4 * c.val) (hoff : off = 512 * c.val)
    (h0 : S512x32.Slices ![0, o] S512x4) (inb : ∀ a, (![0, off] : Fin 2 → Nat) a + S512x512.size a ≤ S512x4096.size a)
    (x0 : Vec Ideal S512x4096 .bf16) (x1 : Vec Ideal S512x4096 .i32) (x2 x3 : Vec Ideal S512x32 .f32) (p q : Fin 512) :
    chunk o h0 (shapeCast S512x32 x2 shapeCasts_S512x32_S512x32) (shapeCast S512x32 x3 shapeCasts_S512x32_S512x32)
        (View.ld x1 (Rect.unit (s := S512x4096) ![0, off] S512x512.size inb))
        (View.ld x0 (Rect.unit (s := S512x4096) ![0, off] S512x512.size inb)) (ix2 p q)
      = ∑ j : Fin 512, x0 (ix2 p (pos c j)) * deq x1 x2 x3 q (pos c j) := by
  have ho4 : o + 4 ≤ 32 := by have := c.isLt; omega
  rw [chunk_apply o ho4, shapeCast_self, shapeCast_self]
  refine Finset.sum_congr rfl fun j _ => ?_
  have hg : (⟨o + j.val / 128, by have := j.isLt; omega⟩ : Fin 32) = grp (pos c j) :=
    Fin.ext (by show o + j.val / 128 = (512 * c.val + j.val) / 128; omega)
  rw [ld_col x0 off inb p j (pos c j) (by rw [pos_val, hoff]), ld_col x1 off inb q j (pos c j) (by rw [pos_val, hoff]), hg]
  rfl

/-! ## The whole block -/

theorem hz : (![0, 0] : Fin 2 → Nat) = fun _ => 0 := funext fun a => by fin_cases a <;> rfl

/-- The zero the accumulation starts from. -/
theorem zero_scalar : Scalar.ofBits (F := Ideal) .f32 0x00000000#32 = (0 : EReal) := by
  show Ideal.ofBits .f32 0x00000000#32 = 0
  exact Ideal.ofBits_zero_f32

/-- What the body stores: the eight chunk products added in order onto a zero block, then the bias row added to every
    row. -/
theorem out_eq (x0 : Vec Ideal S512x4096 .bf16) (x1 : Vec Ideal S512x4096 .i32) (x2 x3 : Vec Ideal S512x32 .f32)
    (x4 : Vec Ideal S1x512 .f32) :
    out0_5 (F := Ideal) x0 x1 x2 x3 x4
      = addf (addf (addf (addf (addf (addf (addf (addf (addf
          (broadcast S512x512 (Scalar.ofBits (F := Ideal) .f32 0x00000000#32))
          (chunk 0 slices_S512x32_o0_0_S512x4 (shapeCast S512x32 x2 shapeCasts_S512x32_S512x32)
            (shapeCast S512x32 x3 shapeCasts_S512x32_S512x32) (View.ld x1 r0_1) (View.ld x0 r0_1)))
          (chunk 4 slices_S512x32_o0_4_S512x4 (shapeCast S512x32 x2 shapeCasts_S512x32_S512x32)
            (shapeCast S512x32 x3 shapeCasts_S512x32_S512x32) (View.ld x1 r0_2) (View.ld x0 r0_2)))
          (chunk 8 slices_S512x32_o0_8_S512x4 (shapeCast S512x32 x2 shapeCasts_S512x32_S512x32)
            (shapeCast S512x32 x3 shapeCasts_S512x32_S512x32) (View.ld x1 r0_3) (View.ld x0 r0_3)))
          (chunk 12 slices_S512x32_o0_12_S512x4 (shapeCast S512x32 x2 shapeCasts_S512x32_S512x32)
            (shapeCast S512x32 x3 shapeCasts_S512x32_S512x32) (View.ld x1 r0_4) (View.ld x0 r0_4)))
          (chunk 16 slices_S512x32_o0_16_S512x4 (shapeCast S512x32 x2 shapeCasts_S512x32_S512x32)
            (shapeCast S512x32 x3 shapeCasts_S512x32_S512x32) (View.ld x1 r0_5) (View.ld x0 r0_5)))
          (chunk 20 slices_S512x32_o0_20_S512x4 (shapeCast S512x32 x2 shapeCasts_S512x32_S512x32)
            (shapeCast S512x32 x3 shapeCasts_S512x32_S512x32) (View.ld x1 r0_6) (View.ld x0 r0_6)))
          (chunk 24 slices_S512x32_o0_24_S512x4 (shapeCast S512x32 x2 shapeCasts_S512x32_S512x32)
            (shapeCast S512x32 x3 shapeCasts_S512x32_S512x32) (View.ld x1 r0_7) (View.ld x0 r0_7)))
          (chunk 28 slices_S512x32_o0_28_S512x4 (shapeCast S512x32 x2 shapeCasts_S512x32_S512x32)
            (shapeCast S512x32 x3 shapeCasts_S512x32_S512x32) (View.ld x1 r0_8) (View.ld x0 r0_8)))
        (broadcastTo S512x512 (shapeCast S1x512 x4 shapeCasts_S1x512_S1x512) broadcasts_S1x512_S512x512) := by
  unfold out0_5
  rw [View.canon_unit_zero hz]
  simp only [View.ld_unit_zero (S := S512x32) hz, View.ld_unit_zero (S := S1x512) hz]
  rfl

/-- Entry `(p, q)` of what the body stores: the contraction over all 4096 columns of `x` with the dequantized weight,
    plus the bias of column `q`. -/
theorem out_apply (x0 : Vec Ideal S512x4096 .bf16) (x1 : Vec Ideal S512x4096 .i32) (x2 x3 : Vec Ideal S512x32 .f32)
    (x4 : Vec Ideal S1x512 .f32) (p q : Fin 512) :
    out0_5 (F := Ideal) x0 x1 x2 x3 x4 (ix2 p q)
      = (∑ k : Fin 4096, x0 (ix2 p k) * deq x1 x2 x3 q k) + x4 (ix2 (0 : Fin 1) q) := by
  rw [out_eq]
  simp only [addf_apply, broadcast_apply]
  rw [chunk_at 0 0 0 rfl rfl, chunk_at 1 4 512 rfl rfl, chunk_at 2 8 1024 rfl rfl, chunk_at 3 12 1536 rfl rfl,
    chunk_at 4 16 2048 rfl rfl, chunk_at 5 20 2560 rfl rfl, chunk_at 6 24 3072 rfl rfl, chunk_at 7 28 3584 rfl rfl,
    broadcastTo_1b_ab_apply, shapeCast_self, zero_scalar, zero_add,
    sum_eight (fun k => x0 (ix2 p k) * deq x1 x2 x3 q k)]

end Cert.KernelIdeal.Block

end
-- ==== Proof.KernelArray.lean ====
/-
  From blocks to the array: what the region leaves in its result array.

  The grid has 16 × 32 points. Point `(i, j)` is handed rows `512 i …` of the activations (all columns), rows `512 j …`
  of the weight codes, of the scales and of the zero points (all columns, all groups), columns `512 j …` of the bias
  row, and writes back block `(i, j)` of the `[8192, 16384]` result. Entry `(p, q)` of that block is entry
  `(512 i + p, 512 j + q)` of the array, and the block's value there (one block, entry by entry) reads the activations
  at row `512 i + p` and the weights, scales, zero points and bias at row / column `512 j + q`. So every block is the
  restriction of ONE function of the arrays as the region finds them,
      `layer X Wq Sc Zp B (r, o) = ∑ k < 4096, X (r, k) · ((Wq (o, k) - Zp (o, k / 128)) · Sc (o, k / 128)) + B (0, o)`,
  and since the 16 × 32 blocks of 512 × 512 tile the array (row `r` lies in block row `r / 512`, column `o` in block
  column `o / 512`), the array after the region is that function.
-/
import proofs.«150903_j57002805952633_1_alg».proof.Proof.KernelBlock
import Idealize.ShloMosaic.Lib.Pipeline.Value

set_option maxRecDepth 16384

noncomputable section

namespace Cert.KernelIdeal.Block

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The layer as one function of the five arrays the region is launched on. -/
def layer (X : Vec Ideal S8192x4096 .bf16) (Wq : Vec Ideal S16384x4096 .i32) (Sc Zp : Vec Ideal S16384x32 .f32)
    (B : Vec Ideal S1x16384 .f32) : Vec Ideal S8192x16384 .f32 :=
  fun i => (∑ k : Fin 4096, X (ix2 (i 0) k) * deq Wq Sc Zp (i 1) k) + B (ix2 (0 : Fin 1) (i 1))

/-- A block whose rows of activations are rows `r …` of `X` and whose rows of weights, scales, zero points and bias
    column are those of row / column `o` of the arrays has, at `(p, q)`, the layer's entry `(r, o)`. -/
theorem block_to_layer (x0 : Vec Ideal S512x4096 .bf16) (x1 : Vec Ideal S512x4096 .i32) (x2 x3 : Vec Ideal S512x32 .f32)
    (x4 : Vec Ideal S1x512 .f32) (X : Vec Ideal S8192x4096 .bf16) (Wq : Vec Ideal S16384x4096 .i32)
    (Sc Zp : Vec Ideal S16384x32 .f32) (B : Vec Ideal S1x16384 .f32) (p q : Fin 512) (r : Fin 8192) (o : Fin 16384)
    (hx : ∀ k : Fin 4096, x0 (ix2 p k) = X (ix2 r k)) (hw : ∀ k : Fin 4096, x1 (ix2 q k) = Wq (ix2 o k))
    (hs : ∀ g : Fin 32, x2 (ix2 q g) = Sc (ix2 o g)) (hzp : ∀ g : Fin 32, x3 (ix2 q g) = Zp (ix2 o g))
    (hb : x4 (ix2 (0 : Fin 1) q) = B (ix2 (0 : Fin 1) o)) :
    out0_5 (F := Ideal) x0 x1 x2 x3 x4 (ix2 p q) = layer X Wq Sc Zp B (ix2 r o) := by
  rw [out_apply]
  show _ = (∑ k : Fin 4096, X (ix2 r k) * deq Wq Sc Zp o k) + B (ix2 (0 : Fin 1) o)
  refine congrArg₂ (· + ·) (Finset.sum_congr rfl fun k _ => ?_) hb
  unfold deq
  rw [hx k, hw k, hs (grp k), hzp (grp k)]

/-- The printed index maps, decided over the grid: the activations move with the result's block row, the weights,
    scales, zero points and bias with its block column, and the block indices stay in range. -/
theorem idx_facts : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (1 : Fin 2) ∧ win0_2.index t (1 : Fin 2) = 0
    ∧ win0_3.index t (0 : Fin 2) = win0_5.index t (1 : Fin 2) ∧ win0_3.index t (1 : Fin 2) = 0
    ∧ win0_4.index t (0 : Fin 2) = 0 ∧ win0_4.index t (1 : Fin 2) = win0_5.index t (1 : Fin 2)
    ∧ win0_5.index t (0 : Fin 2) ≤ 15 ∧ win0_5.index t (1 : Fin 2) ≤ 31 :=
  (by decide +kernel : ∀ t : Fin grid0.N, _)

/-- Block `(q0, q1)` of the result is written by point `32 q0 + q1`. -/
theorem idx_at : ∀ (q0 : Fin 16) (q1 : Fin 32),
    win0_5.index (⟨q0.val * 32 + q1.val, by rw [N_0]; have := q0.isLt; have := q1.isLt; omega⟩ : Fin grid0.N)
      = ![q0.val, q1.val] := by
  decide +kernel

/-- WHAT POINT `t` WRITES BACK is block `t` of the layer of the arrays as the region finds them. -/
theorem flushed_eq (c : Dev nD) (t : Fin cfg0.N) :
    (dats m 0 c).flushed 5 t = ((cfg0.win 5).blk t).view.read (Elt Ideal)
      (layer (V m c main_v1) (V m c main_arg1) (V m c main_v2) (V m c main_v3) (V m c main_v4)) := by
  show (cfg0.win 5).cut (grid0.coords t) ((dats m 0 c).after 5 t) = _
  rw [after0_5]
  obtain ⟨e00, e01, e10, e11, e20, e21, e30, e31, e40, e41, b0, b1⟩ := idx_facts t
  refine funext fun (y : S512x512.Idx) => ?_
  obtain ⟨p, q, rfl⟩ : ∃ (p q : Fin 512), y = ix2 p q := ⟨y 0, y 1, eq_ix2 y⟩
  -- the array index under entry (p, q) of the block
  have hp : p.val < 512 := p.isLt
  have hq : q.val < 512 := q.isLt
  let r : Fin 8192 := ⟨win0_5.index t (0 : Fin 2) * 512 + p.val, by omega⟩
  let o : Fin 16384 := ⟨win0_5.index t (1 : Fin 2) * 512 + q.val, by omega⟩
  have hE : ((cfg0.win 5).blk t).view.emb (ix2 p q) = ix2 r o := by
    funext a; apply Fin.ext
    match a with
    | ⟨0, _⟩ => show win0_5.index t (0 : Fin 2) * 512 + 1 * p.val = win0_5.index t (0 : Fin 2) * 512 + p.val; omega
    | ⟨1, _⟩ => show win0_5.index t (1 : Fin 2) * 512 + 1 * q.val = win0_5.index t (1 : Fin 2) * 512 + q.val; omega
  show out0_5 (iblk m c 0 t) (iblk m c 1 t) (iblk m c 2 t) (iblk m c 3 t) (iblk m c 4 t) (ix2 p q)
    = layer (V m c main_v1) (V m c main_arg1) (V m c main_v2) (V m c main_v3) (V m c main_v4)
        (((cfg0.win 5).blk t).view.emb (ix2 p q))
  rw [hE]
  -- each input block read where the result's entry says
  have hx : ∀ k : Fin 4096, iblk m c 0 t (ix2 p k) = V m c main_v1 (ix2 r k) := fun k => by
    show V m c main_v1 (((cfg0.win 0).blk t).view.emb (ix2 p k)) = V m c main_v1 (ix2 r k)
    refine congrArg _ (funext fun a => Fin.ext ?_)
    match a with
    | ⟨0, _⟩ => show win0_0.index t (0 : Fin 2) * 512 + 1 * p.val = win0_5.index t (0 : Fin 2) * 512 + p.val; omega
    | ⟨1, _⟩ => show win0_0.index t (1 : Fin 2) * 4096 + 1 * k.val = k.val; omega
  have hw : ∀ k : Fin 4096, iblk m c 1 t (ix2 q k) = V m c main_arg1 (ix2 o k) := fun k => by
    show V m c main_arg1 (((cfg0.win 1).blk t).view.emb (ix2 q k)) = V m c main_arg1 (ix2 o k)
    refine congrArg _ (funext fun a => Fin.ext ?_)
    match a with
    | ⟨0, _⟩ => show win0_1.index t (0 : Fin 2) * 512 + 1 * q.val = win0_5.index t (1 : Fin 2) * 512 + q.val; omega
    | ⟨1, _⟩ => show win0_1.index t (1 : Fin 2) * 4096 + 1 * k.val = k.val; omega
  have hs : ∀ g : Fin 32, iblk m c 2 t (ix2 q g) = V m c main_v2 (ix2 o g) := fun g => by
    show V m c main_v2 (((cfg0.win 2).blk t).view.emb (ix2 q g)) = V m c main_v2 (ix2 o g)
    refine congrArg _ (funext fun a => Fin.ext ?_)
    match a with
    | ⟨0, _⟩ => show win0_2.index t (0 : Fin 2) * 512 + 1 * q.val = win0_5.index t (1 : Fin 2) * 512 + q.val; omega
    | ⟨1, _⟩ => show win0_2.index t (1 : Fin 2) * 32 + 1 * g.val = g.val; omega
  have hzp : ∀ g : Fin 32, iblk m c 3 t (ix2 q g) = V m c main_v3 (ix2 o g) := fun g => by
    show V m c main_v3 (((cfg0.win 3).blk t).view.emb (ix2 q g)) = V m c main_v3 (ix2 o g)
    refine congrArg _ (funext fun a => Fin.ext ?_)
    match a with
    | ⟨0, _⟩ => show win0_3.index t (0 : Fin 2) * 512 + 1 * q.val = win0_5.index t (1 : Fin 2) * 512 + q.val; omega
    | ⟨1, _⟩ => show win0_3.index t (1 : Fin 2) * 32 + 1 * g.val = g.val; omega
  have hb : iblk m c 4 t (ix2 (0 : Fin 1) q) = V m c main_v4 (ix2 (0 : Fin 1) o) := by
    show V m c main_v4 (((cfg0.win 4).blk t).view.emb (ix2 (0 : Fin 1) q)) = V m c main_v4 (ix2 (0 : Fin 1) o)
    refine congrArg _ (funext fun a => Fin.ext ?_)
    match a with
    | ⟨0, _⟩ => show win0_4.index t (0 : Fin 2) * 1 + 1 * 0 = 0; omega
    | ⟨1, _⟩ => show win0_4.index t (1 : Fin 2) * 512 + 1 * q.val = win0_5.index t (1 : Fin 2) * 512 + q.val; omega
  exact block_to_layer (iblk m c 0 t) (iblk m c 1 t) (iblk m c 2 t) (iblk m c 3 t) (iblk m c 4 t)
    (V m c main_v1) (V m c main_arg1) (V m c main_v2) (V m c main_v3) (V m c main_v4) p q r o hx hw hs hzp hb

/-- An index of the array is in point `t`'s block iff each coordinate is in the block's range on its axis. -/
theorem mem_blk (t : Fin cfg0.N) (i : S8192x16384.Idx) :
    i ∈ ((cfg0.win 5).blk t).view.set ↔ ∀ a : Fin 2, win0_5.index t a * S512x512.size a ≤ (i a).val
      ∧ (i a).val < win0_5.index t a * S512x512.size a + S512x512.size a := by
  show i ∈ ((View.whole main_v5).slice (win0_5.rect t)).set ↔ _
  rw [View.set_slice_whole, Rect.mem_set_unit]
  exact Iff.rfl

/-- Every entry of the array lies in some point's block: row `r` in block row `r / 512`, column `o` in block column
    `o / 512`. -/
theorem cover (i : S8192x16384.Idx) :
    ∃ t : Fin cfg0.N, (cfg0.win 5).flush t = true ∧ i ∈ ((cfg0.win 5).blk t).view.set := by
  have hi0 : (i 0).val < 8192 := (i 0).isLt
  have hi1 : (i 1).val < 16384 := (i 1).isLt
  let t : Fin cfg0.N := ⟨(i 0).val / 512 * 32 + (i 1).val / 512, by show _ < grid0.N; rw [N_0]; omega⟩
  have ht : win0_5.index t = ![(i 0).val / 512, (i 1).val / 512] :=
    idx_at ⟨(i 0).val / 512, by omega⟩ ⟨(i 1).val / 512, by omega⟩
  refine ⟨t, flush0_5 t, ?_⟩
  rw [mem_blk]
  have q0 := congrFun ht 0
  have q1 := congrFun ht 1
  intro a
  match a with
  | ⟨0, _⟩ =>
    rw [show (⟨0, by decide⟩ : Fin 2) = (0 : Fin 2) from rfl, q0]
    show (i 0).val / 512 * 512 ≤ (i 0).val ∧ (i 0).val < (i 0).val / 512 * 512 + 512
    omega
  | ⟨1, _⟩ =>
    rw [show (⟨1, by decide⟩ : Fin 2) = (1 : Fin 2) from rfl, q1]
    show (i 1).val / 512 * 512 ≤ (i 1).val ∧ (i 1).val < (i 1).val / 512 * 512 + 512
    omega

/-- THE ARRAY after the region: the layer of the arrays as the region finds them. -/
theorem final (c : Dev nD) :
    (dats m 0 c).arrAt 5 cfg0.N
      = layer (V m c main_v1) (V m c main_arg1) (V m c main_v2) (V m c main_v3) (V m c main_v4) :=
  (dats m 0 c).arrAt_eq_of_cover 5 _ (fun t _ => flushed_eq m c t) cover

end Cert.KernelIdeal.Block

end
-- ==== Proof.Spec.lean ====
/-
  The quantized linear layer, entry by entry.

  The arguments are activations `x : [4, 2048, 4096]`, integer weight codes `wq : [16384, 4096]`, one scale and one zero
  point per group of 128 consecutive weights in row-major order (`sc`, `zp : [524288, 1]`: 32 groups per weight row, so
  weight `(o, k)` belongs to group `32 o + k / 128`), and a bias `b : [16384]`. The result `[4, 2048, 16384]` is
      `y (a, s, o) = ∑ k < 4096, x (a, s, k) · ((wq (o, k) - zp (g, 0)) · sc (g, 0)) + b (o)`,  `g = 32 o + k / 128`,
  on the extended reals: the integer code read exactly, every operation the exact one.
-/
import Idealize.ShloMosaic.PureOps.Ideal
import Idealize.ShloMosaic.Lib.ValueIdx

noncomputable section

namespace Cert.QuantLinear

open Idealize.ShloMosaic Idealize.ShloMosaic.ValueIdx

/-- The group of weight `(o, k)` in the row-major list of groups of 128 weights. -/
def gidx (o : Fin 16384) (k : Fin 4096) : Fin 524288 :=
  ⟨o.val * 32 + k.val / 128, by have := o.isLt; have := k.isLt; omega⟩

theorem gidx_val (o : Fin 16384) (k : Fin 4096) : (gidx o k).val = o.val * 32 + k.val / 128 := rfl

/-- Entry `i = (a, s, o)` of the layer. -/
def entry (x : (⟨3, ![4, 2048, 4096]⟩ : Shape).Idx → EReal) (wq : (⟨2, ![16384, 4096]⟩ : Shape).Idx → BitVec 32)
    (sc zp : (⟨2, ![524288, 1]⟩ : Shape).Idx → EReal) (b : (⟨1, ![16384]⟩ : Shape).Idx → EReal)
    (i : (⟨3, ![4, 2048, 16384]⟩ : Shape).Idx) : EReal :=
  (∑ k : Fin 4096, x (ix3 (i 0) (i 1) k)
      * ((FloatOps.sitofp (F := Ideal) .f32 (wq (ix2 (i 2) k)) - zp (ix2 (gidx (i 2) k) (0 : Fin 1)))
          * sc (ix2 (gidx (i 2) k) (0 : Fin 1))))
    + b (ix1 (i 2))

end Cert.QuantLinear

end
-- ==== Proof.KernelRun.lean ====
/-
  The kernel program's result, from its arguments.

  Before the region the host views the activations `[4, 2048, 4096]` as `[8192, 4096]` (row `2048 a + s`) and narrows
  their format (no change on the extended reals), views the scales and zero points `[524288, 1]` as `[16384, 32]`
  (entry `(o, g)` is group `32 o + g`), and the bias as one row `[1, 16384]`. The region leaves the layer of these
  arrays in `[8192, 16384]`, and after it the host views that as `[4, 2048, 16384]`. Read at `(a, s, o)` the
  views are changes of index with the same row-major position, so the program's result there is the layer's entry:
  activations at `(a, s, k)`, weight code at `(o, k)`, parameters of group `32 o + k / 128`, bias at `o`.
-/
import proofs.«150903_j57002805952633_1_alg».proof.Proof.KernelArray
import proofs.«150903_j57002805952633_1_alg».proof.Proof.Spec
import Idealize.ShloMosaic.Lib.StableHlo.Run

noncomputable section

namespace Cert.KernelIdeal.Block

open Idealize.ShloMosaic Idealize.ShloMosaic.TcCoe Idealize.ShloMosaic.ValueIdx Idealize.SL.Sem
open Cert.KernelIdeal Cert.KernelIdeal.Gen Cert.QuantLinear

variable (m : (ℓ : Loc nD τ sig) → Buf (Elt Ideal) ℓ) (ρ : Dev nD → PrngReg)

/-! ## The arrays the region finds -/

theorem V_v1 (c : Dev nD) :
    (V m c main_v1 : S8192x4096.Idx → EReal)
      = shapeCast S8192x4096 (m ((c : Thread nD τ).loc main_arg0)) shapeCasts_S4x2048x4096_S8192x4096 := by
  show StableHlo.after hostOps0 (fun b => m (c, b)) (Proc.devRef .tc main_v1) = _
  after_results
  rfl

theorem V_v2 (c : Dev nD) :
    (V m c main_v2 : S16384x32.Idx → EReal)
      = shapeCast S16384x32 (m ((c : Thread nD τ).loc main_arg2)) shapeCasts_S524288x1_S16384x32 := by
  show StableHlo.after hostOps0 (fun b => m (c, b)) (Proc.devRef .tc main_v2) = _
  after_results
  rfl

theorem V_v3 (c : Dev nD) :
    (V m c main_v3 : S16384x32.Idx → EReal)
      = shapeCast S16384x32 (m ((c : Thread nD τ).loc main_arg3)) shapeCasts_S524288x1_S16384x32 := by
  show StableHlo.after hostOps0 (fun b => m (c, b)) (Proc.devRef .tc main_v3) = _
  after_results
  rfl

theorem V_v4 (c : Dev nD) :
    (V m c main_v4 : S1x16384.Idx → EReal)
      = shapeCast S1x16384 (m ((c : Thread nD τ).loc main_arg4)) shapeCasts_S16384_S1x16384 := by
  show StableHlo.after hostOps0 (fun b => m (c, b)) (Proc.devRef .tc main_v4) = _
  after_results
  rfl

/-! ## The program's result as one term of the arguments -/

/-- The host's views around the layer. -/
def result (x : Vec Ideal S4x2048x4096 .f32) (wq : Vec Ideal S16384x4096 .i32) (sc zp : Vec Ideal S524288x1 .f32)
    (b : Vec Ideal S16384 .f32) : Vec Ideal S4x2048x16384 .f32 :=
  shapeCast S4x2048x16384
    (layer (shapeCast S8192x4096 x shapeCasts_S4x2048x4096_S8192x4096) wq
      (shapeCast S16384x32 sc shapeCasts_S524288x1_S16384x32) (shapeCast S16384x32 zp shapeCasts_S524288x1_S16384x32)
      (shapeCast S1x16384 b shapeCasts_S16384_S1x16384))
    shapeCasts_S8192x16384_S4x2048x16384

/-- After the host's last operation the result buffer holds `result` of the arguments. -/
theorem tail_v6 (c : Dev nD) :
    Pipeline.afterTail₀ cfgs (dats m) 0 (V0 m) [hostOps1] c main_v6
      = result (m ((c : Thread nD τ).loc main_arg0)) (m ((c : Thread nD τ).loc main_arg1))
          (m ((c : Thread nD τ).loc main_arg2)) (m ((c : Thread nD τ).loc main_arg3)) (m ((c : Thread nD τ).loc main_arg4)) := by
  unfold Pipeline.afterTail₀
  show StableHlo.after hostOps1 _ (Proc.devRef .tc main_v6) = _
  after_results
  have hA : Pipeline.withArrays spec0 c (V0 m c) (fun w => (dats m 0 c).arrAt w cfg0.N) (Proc.devRef .tc main_v5)
      = layer (V m c main_v1) (V m c main_arg1) (V m c main_v2) (V m c main_v3) (V m c main_v4) :=
    (Pipeline.withArrays_arr spec0 launch0.win.arr_inj c _ _ 5).trans (final m c)
  rw [hA, V_v1, V_v2, V_v3, V_v4, V_main_arg1]
  rfl

/-- Every weakly fair execution of the kernel program terminates with the result buffer at `result` of the arguments and
    the arguments unchanged. -/
theorem run : θ_run defs (onTc (τ := τ) (main (F := Ideal))) ⟨m, fun _ => 0, ρ⟩ fun r => ∀ c : Dev nD,
      r.2.mem ((c.tc : Thread nD τ).loc main_v6)
        = result (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v6 (Pipeline.mem_restRefs_of main_v6 (by decide) (by decide))).trans (tail_v6 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

/-! ## The result at an entry -/

/-- `result` read at `(a, s, o)` is the layer's entry. -/
theorem result_apply (x : Vec Ideal S4x2048x4096 .f32) (wq : Vec Ideal S16384x4096 .i32) (sc zp : Vec Ideal S524288x1 .f32)
    (b : Vec Ideal S16384 .f32) (i : S4x2048x16384.Idx) :
    result x wq sc zp b i = entry x wq sc zp b i := by
  obtain ⟨a, s, o, rfl⟩ : ∃ (a : Fin 4) (s : Fin 2048) (o : Fin 16384), i = ix3 a s o := ⟨i 0, i 1, i 2, eq_ix3 i⟩
  have ha : a.val < 4 := a.isLt
  have hs : s.val < 2048 := s.isLt
  have ho : o.val < 16384 := o.isLt
  unfold result
  refine (shapeCast_apply _ shapeCasts_S8192x16384_S4x2048x16384 (ix3 a s o)
    (ix2 (⟨a.val * 2048 + s.val, by omega⟩ : Fin 8192) o) ?_).trans ?_
  · rw [Shape.rowMajor_val_two, Shape.rowMajor_val_three]
    show (a.val * 2048 + s.val) * 16384 + o.val = (a.val * 2048 + s.val) * 16384 + o.val
    rfl
  show (∑ k : Fin 4096, shapeCast S8192x4096 x shapeCasts_S4x2048x4096_S8192x4096 (ix2 (⟨a.val * 2048 + s.val, by omega⟩ : Fin 8192) k)
        * ((FloatOps.sitofp (F := Ideal) .f32 (wq (ix2 o k))
            - shapeCast S16384x32 zp shapeCasts_S524288x1_S16384x32 (ix2 o (grp k)))
          * shapeCast S16384x32 sc shapeCasts_S524288x1_S16384x32 (ix2 o (grp k))))
      + shapeCast S1x16384 b shapeCasts_S16384_S1x16384 (ix2 (0 : Fin 1) o)
    = (∑ k : Fin 4096, x (ix3 a s k)
        * ((FloatOps.sitofp (F := Ideal) .f32 (wq (ix2 o k)) - zp (ix2 (gidx o k) (0 : Fin 1))) * sc (ix2 (gidx o k) (0 : Fin 1))))
      + b (ix1 o)
  have hb : shapeCast S1x16384 b shapeCasts_S16384_S1x16384 (ix2 (0 : Fin 1) o) = b (ix1 o) :=
    shapeCast_apply b _ _ _ (by
      rw [Shape.rowMajor_val_one, Shape.rowMajor_val_two]
      show o.val = 0 * 16384 + o.val
      omega)
  rw [hb]
  refine congrArg (· + b (ix1 o)) (Finset.sum_congr rfl fun k _ => ?_)
  have hk : k.val < 4096 := k.isLt
  have hx : shapeCast S8192x4096 x shapeCasts_S4x2048x4096_S8192x4096 (ix2 (⟨a.val * 2048 + s.val, by omega⟩ : Fin 8192) k)
      = x (ix3 a s k) :=
    shapeCast_apply x _ _ _ (by
      rw [Shape.rowMajor_val_three, Shape.rowMajor_val_two]
      show (a.val * 2048 + s.val) * 4096 + k.val = (a.val * 2048 + s.val) * 4096 + k.val
      rfl)
  have hsc : shapeCast S16384x32 sc shapeCasts_S524288x1_S16384x32 (ix2 o (grp k)) = sc (ix2 (gidx o k) (0 : Fin 1)) :=
    shapeCast_apply sc _ _ _ (by
      rw [Shape.rowMajor_val_two, Shape.rowMajor_val_two]
      show (o.val * 32 + k.val / 128) * 1 + 0 = o.val * 32 + k.val / 128
      omega)
  have hzp : shapeCast S16384x32 zp shapeCasts_S524288x1_S16384x32 (ix2 o (grp k)) = zp (ix2 (gidx o k) (0 : Fin 1)) :=
    shapeCast_apply zp _ _ _ (by
      rw [Shape.rowMajor_val_two, Shape.rowMajor_val_two]
      show (o.val * 32 + k.val / 128) * 1 + 0 = o.val * 32 + k.val / 128
      omega)
  rw [hx, hsc, hzp]

/-- The run with the result buffer at the layer's entries. -/
theorem run_entry : θ_run defs (onTc (τ := τ) (main (F := Ideal))) ⟨m, fun _ => 0, ρ⟩ fun r => ∀ c : Dev nD,
      r.2.mem ((c.tc : Thread nD τ).loc main_v6)
        = (fun i => entry (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (funext fun i => result_apply _ _ _ _ _ i), (h c).2⟩) (run m ρ)

end Cert.KernelIdeal.Block

end
-- ==== Proof.RefSide.lean ====
/-
  The reference computes the layer's entry.

  The reference converts the codes to numbers, views the `[16384, 4096]` weights as `[524288, 128]` (one row per group),
  subtracts the group's zero point and multiplies by the group's scale (each repeated along its row), views the result
  as `[16384, 4096]` again, contracts the activations with it along the 4096 columns, and adds the bias repeated over
  the leading axes. Read at `(a, s, o)`: the two views undo each other — weight `(o, k)` sits at row
  `(4096 o + k) / 128 = 32 o + k / 128` of the grouped view, which is its group — so the entry is the layer's.
-/
import proofs.«150903_j57002805952633_1_alg».proof.Proof.Gen.ReferenceIdeal.Read
import proofs.«150903_j57002805952633_1_alg».proof.Proof.Spec

noncomputable section

namespace Cert.ReferenceIdeal.RefValue

open Idealize.ShloMosaic Idealize.ShloMosaic.ValueIdx
open Cert.ReferenceIdeal Cert.ReferenceIdeal.Gen Cert.ReferenceIdeal.Read Cert.QuantLinear

/-- The reference's result, read at an entry, is the layer's entry. -/
theorem ref_apply (x0 : (⟨S4x2048x4096, .f32⟩ : BufTy).Contents (Elt Ideal)) (x1 : (⟨S16384x4096, .i32⟩ : BufTy).Contents (Elt Ideal))
    (x2 x3 : (⟨S524288x1, .f32⟩ : BufTy).Contents (Elt Ideal)) (x4 : (⟨S16384, .f32⟩ : BufTy).Contents (Elt Ideal))
    (i : S4x2048x16384.Idx) :
    val_main_v10 (F := Ideal) x0 x1 x2 x3 x4 i = entry x0 x1 x2 x3 x4 i := by
  obtain ⟨a, s, o, rfl⟩ : ∃ (a : Fin 4) (s : Fin 2048) (o : Fin 16384), i = ix3 a s o := ⟨i 0, i 1, i 2, eq_ix3 i⟩
  rw [val_main_v10_apply, val_main_v7_apply, val_main_v9_apply, val_main_v8_apply]
  show (∑ k : Fin 4096, x0 (lidx_main_v7 (ix3 a s o) k) * val_main_v6 (F := Ideal) x1 x2 x3 (ridx_main_v7 (ix3 a s o) k))
      + x4 (idx_main_v8 (idx_main_v9 (ix3 a s o)))
    = (∑ k : Fin 4096, x0 (ix3 a s k)
        * ((FloatOps.sitofp (F := Ideal) .f32 (x1 (ix2 o k)) - x3 (ix2 (gidx o k) (0 : Fin 1))) * x2 (ix2 (gidx o k) (0 : Fin 1))))
      + x4 (ix1 o)
  have hb : idx_main_v8 (idx_main_v9 (ix3 a s o)) = ix1 o :=
    funext fun d => Fin.ext (by match d with | ⟨0, _⟩ => rfl)
  rw [hb]
  refine congrArg (· + x4 (ix1 o)) (Finset.sum_congr rfl fun k _ => ?_)
  have ho : o.val < 16384 := o.isLt
  have hk : k.val < 4096 := k.isLt
  have e0 : lidx_main_v7 (ix3 a s o) k = ix3 a s k :=
    funext fun d => Fin.ext (by match d with | ⟨0, _⟩ => rfl | ⟨1, _⟩ => rfl | ⟨2, _⟩ => rfl)
  have e1 : idx_main_v1 (idx_main_v6 (ridx_main_v7 (ix3 a s o) k)) = ix2 o k :=
    funext fun d => Fin.ext (by
      match d with
      | ⟨0, _⟩ => show ((o.val * 4096 + k.val) / 128 * 128 + (o.val * 4096 + k.val) % 128) / 4096 = o.val; omega
      | ⟨1, _⟩ => show ((o.val * 4096 + k.val) / 128 * 128 + (o.val * 4096 + k.val) % 128) % 4096 = k.val; omega)
  have e2 : idx_main_v2 (idx_main_v6 (ridx_main_v7 (ix3 a s o) k)) = ix2 (gidx o k) (0 : Fin 1) :=
    funext fun d => Fin.ext (by
      match d with
      | ⟨0, _⟩ => show (o.val * 4096 + k.val) / 128 = o.val * 32 + k.val / 128; omega
      | ⟨1, _⟩ => rfl)
  have e4 : idx_main_v4 (idx_main_v6 (ridx_main_v7 (ix3 a s o) k)) = ix2 (gidx o k) (0 : Fin 1) :=
    funext fun d => Fin.ext (by
      match d with
      | ⟨0, _⟩ => show (o.val * 4096 + k.val) / 128 = o.val * 32 + k.val / 128; omega
      | ⟨1, _⟩ => rfl)
  rw [val_main_v6_apply, val_main_v5_apply, val_main_v3_apply, val_main_v1_apply, val_main_v0_apply, val_main_v2_apply,
    val_main_v4_apply, e0, e1, e2, e4]
  rfl

/-- The reference's whole result is the layer, entry by entry. -/
theorem ref_eq (x0 : (⟨S4x2048x4096, .f32⟩ : BufTy).Contents (Elt Ideal)) (x1 : (⟨S16384x4096, .i32⟩ : BufTy).Contents (Elt Ideal))
    (x2 x3 : (⟨S524288x1, .f32⟩ : BufTy).Contents (Elt Ideal)) (x4 : (⟨S16384, .f32⟩ : BufTy).Contents (Elt Ideal)) :
    val_main_v10 (F := Ideal) x0 x1 x2 x3 x4 = fun i => entry x0 x1 x2 x3 x4 i :=
  funext fun i => ref_apply x0 x1 x2 x3 x4 i

end Cert.ReferenceIdeal.RefValue

end
-- ==== Proof.lean ====
/-
  A quantized linear layer: the tiled kernel against the plain reference, on the extended reals.

  Both programs compute, for activations `x : [4, 2048, 4096]`, integer weight codes `wq : [16384, 4096]`, one scale and
  one zero point per group of 128 consecutive weights (`[524288, 1]`) and a bias `[16384]`,
      `y (a, s, o) = ∑ k < 4096, x (a, s, k) · ((wq (o, k) - zp (g)) · sc (g)) + bias (o)`,   `g = 32 o + k / 128`.
  The reference dequantizes the whole weight matrix through a `[524288, 128]` view and contracts once. The kernel works
  on 512 × 512 tiles of the result over a 16 × 32 grid; on a tile it walks the 4096 columns in eight chunks of 512,
  dequantizes each chunk from the tile's own 32 groups per row, contracts it with the matching chunk of activations
  into a zero accumulator, adds the eight products in order and then the bias. The two agree entry by entry because a
  sum over 4096 terms is the sum of its eight chunks of 512 (addition on the extended reals is commutative and
  associative whatever the terms are), zero plus a sum is the sum, column `512 c + j` of a row lies in group
  `4 c + j / 128` of that row, and the host's changes of shape keep row-major positions. Nothing needs the inputs to be
  finite. The three programs' runs and the kernels' frames are the generated ones; the idealization rewrote nothing, so
  there is nothing to preserve.
-/
import proofs.«150903_j57002805952633_1_alg».proof.Defs
import proofs.«150903_j57002805952633_1_alg».proof.Proof.Gen.Kernel
import proofs.«150903_j57002805952633_1_alg».proof.Proof.Gen.Kernel.Skeleton
import proofs.«150903_j57002805952633_1_alg».proof.Proof.Gen.Kernel.Launch
import proofs.«150903_j57002805952633_1_alg».proof.Proof.Gen.Kernel.Points
import proofs.«150903_j57002805952633_1_alg».proof.Proof.Gen.Kernel.Frame
import proofs.«150903_j57002805952633_1_alg».proof.Proof.Gen.KernelIdeal
import proofs.«150903_j57002805952633_1_alg».proof.Proof.Gen.KernelIdeal.Skeleton
import proofs.«150903_j57002805952633_1_alg».proof.Proof.Gen.KernelIdeal.Launch
import proofs.«150903_j57002805952633_1_alg».proof.Proof.Gen.KernelIdeal.Points
import proofs.«150903_j57002805952633_1_alg».proof.Proof.Gen.KernelIdeal.Frame
import proofs.«150903_j57002805952633_1_alg».proof.Proof.Gen.ReferenceIdeal
import proofs.«150903_j57002805952633_1_alg».proof.Proof.Gen.ReferenceIdeal.Run
import proofs.«150903_j57002805952633_1_alg».proof.Proof.Gen.ReferenceIdeal.Read
import proofs.«150903_j57002805952633_1_alg».proof.Proof.Gen.Pre_finite_inputs
import proofs.«150903_j57002805952633_1_alg».proof.Proof.KernelRun
import proofs.«150903_j57002805952633_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the layer's entries in their result buffers. -/
theorem algebraic : Cert.algebraic_KernelIdeal_ReferenceIdeal := by
  intro m ρ m' ρ' _ hagree
  refine ⟨_, Cert.KernelIdeal.Block.run_entry m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.ref_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
